-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S1x512x1x1 : Shape := ⟨4, ![1, 512, 1, 1]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S1x512x1x1 : S_.BroadcastsInDim S1x512x1x1 (![] : Fin 0 → Fin S1x512x1x1.rank)
  reducesTo_S1x512x1x1_S_d0_1_2_3 : S1x512x1x1.ReducesTo [0, 1, 2, 3] S_

variable [Facts]

def fn {F : FTy → Type} [FloatOps F] (main_arg0 : FVec F S64x512x32x32 .f32) (main_arg1 : FVec F S1x512x1x1 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S1x512x1x1 .f32 := Host.absf main_arg1
  let main_cst_0 : FVec F S_ .f32 := constant S_ .f32 0x7F800000#32
  let main_v5 : FVec F S1x512x1x1 .f32 := broadcastInDim S1x512x1x1 ![] bcast_S_S1x512x1x1 main_cst_0
  let main_v6 : IVec S1x512x1x1 1 := cmpf .olt main_v4 main_v5
  let main_c_1 : IVec S_ 1 := constantI S_ 1 1#1
  let main_v7 : IVec S_ 1 := (fun x v => Host.reduce IntOp.andi x v reducesTo_S1x512x1x1_S_d0_1_2_3 h_S_) main_v6 main_c_1
  let main_v8 : IVec S_ 1 := andi main_v3 main_v7
  main_v8
-- ==== Kernel.lean ====
abbrev S64x512x32x32 : Shape := ⟨4, ![64, 512, 32, 32]⟩
abbrev S1x512x1x1 : Shape := ⟨4, ![1, 512, 1, 1]⟩
abbrev S2x512x8x32 : Shape := ⟨4, ![2, 512, 8, 32]⟩
abbrev S2x512x8 : Shape := ⟨3, ![2, 512, 8]⟩
abbrev S2x512x8x1 : Shape := ⟨4, ![2, 512, 8, 1]⟩
abbrev S2x8x1 : Shape := ⟨3, ![2, 8, 1]⟩
abbrev S2x1x8x1 : Shape := ⟨4, ![2, 1, 8, 1]⟩

abbrev nBuf : Space → Nat
  | .hbm => 3
  | .vmem => 5
  | .smem => 0
  | _ => 0

abbrev bufTy : (tb : Table) → Fin (tcTables nBuf tb) → BufTy
  | .hbm, ⟨0, _⟩ => ⟨S64x512x32x32, .f32⟩
  | .hbm, ⟨1, _⟩ => ⟨S1x512x1x1, .f32⟩
  | .hbm, ⟨2, _⟩ => ⟨S64x512x32x32, .f32⟩
  | .local _ .vmem, ⟨0, _⟩ => ⟨S2x512x8x32, .f32⟩
  | .local _ .vmem, ⟨1, _⟩ => ⟨S2x512x8x32, .f32⟩
  | .local _ .vmem, ⟨2, _⟩ => ⟨S1x512x1x1, .f32⟩
  | .local _ .vmem, ⟨3, _⟩ => ⟨S2x512x8x32, .f32⟩
  | .local _ .vmem, ⟨4, _⟩ => ⟨S2x512x8x32, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S2x512x8x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x512x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2x512x8x32_S2x512x8x32_0_0_0_0 : ∀ a, (![0, 0, 0, 0] : Fin 4 → Nat) a + S2x512x8x32.size a ≤ S2x512x8x32.size a
  h_S2x512x8x32 : 0 < S2x512x8x32.numel
  reduces_S2x512x8x32_S2x512x8 : S2x512x8x32.Reduces [3] S2x512x8
  shapeCasts_S2x512x8_S2x512x8x1 : S2x512x8.ShapeCasts S2x512x8x1
  inb_S1x512x1x1_S1x512x1x1_0_0_0_0 : ∀ a, (![0, 0, 0, 0] : Fin 4 → Nat) a + S1x512x1x1.size a ≤ S1x512x1x1.size a
  h_S1x512x1x1 : 0 < S1x512x1x1.numel
  broadcasts_S1x512x1x1_S2x512x8x1 : S1x512x1x1.Broadcasts S2x512x8x1
  reduces_S2x512x8x1_S2x8x1 : S2x512x8x1.Reduces [1] S2x8x1
  shapeCasts_S2x8x1_S2x1x8x1 : S2x8x1.ShapeCasts S2x1x8x1
  broadcasts_S2x1x8x1_S2x512x8x32 : S2x1x8x1.Broadcasts S2x512x8x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x8x32.size a ≤ S64x512x32x32.size a
  hwx0_0 : ∀ i : grid0.Coords, EltTy.bits .f32 = 32 ∨ (Rect.block (s := S64x512x32x32) S2x512x8x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x1x1.size a ≤ S1x512x1x1.size a
  hwx0_1 : ∀ i : grid0.Coords, EltTy.bits .f32 = 32 ∨ (Rect.block (s := S1x512x1x1) S1x512x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x8x32.size a ≤ S64x512x32x32.size a
  hwx0_2 : ∀ i : grid0.Coords, EltTy.bits .f32 = 32 ∨ (Rect.block (s := S64x512x32x32) S2x512x8x32.size (cc0_transform_2 i) (hinb0_2 i)).WholeWords (EltTy.packing .f32)

variable [Facts₀]

abbrev win0_0 : Pipeline.Window sig grid0 :=
  Pipeline.Window.ofSpec (Memref.whole main_arg0) S2x512x8x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512x8x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S1x512x1x1 : Shape := ⟨4, ![1, 512, 1, 1]⟩
abbrev S_ : Shape := ⟨0, ![]⟩
abbrev S64x512x32 : Shape := ⟨3, ![64, 512, 32]⟩
abbrev S64x512x32x1 : Shape := ⟨4, ![64, 512, 32, 1]⟩
abbrev S64x32x32 : Shape := ⟨3, ![64, 32, 32]⟩
abbrev S64x1x32x32 : Shape := ⟨4, ![64, 1, 32, 32]⟩

abbrev nBuf : Space → Nat
  | .hbm => 15
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S1x512x1x1, .f32⟩
  | .hbm, ⟨2, _⟩ => ⟨S64x512x32x32, .f32⟩
  | .hbm, ⟨3, _⟩ => ⟨S_, .f32⟩
  | .hbm, ⟨4, _⟩ => ⟨S64x512x32, .f32⟩
  | .hbm, ⟨5, _⟩ => ⟨S64x512x32x1, .f32⟩
  | .hbm, ⟨6, _⟩ => ⟨S64x512x32x1, .f32⟩
  | .hbm, ⟨7, _⟩ => ⟨S64x512x32x32, .f32⟩
  | .hbm, ⟨8, _⟩ => ⟨S64x512x32x32, .f32⟩
  | .hbm, ⟨9, _⟩ => ⟨S64x512x32x32, .f32⟩
  | .hbm, ⟨10, _⟩ => ⟨S_, .f32⟩
  | .hbm, ⟨11, _⟩ => ⟨S64x32x32, .f32⟩
  | .hbm, ⟨12, _⟩ => ⟨S64x1x32x32, .f32⟩
  | .hbm, ⟨13, _⟩ => ⟨S64x512x32x32, .f32⟩
  | .hbm, ⟨14, _⟩ => ⟨S64x512x32x32, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S64x512x32x32_S64x512x32_d3 : S64x512x32x32.ReducesTo [3] S64x512x32
  h_S_ : 0 < S_.numel
  bcast_S64x512x32_S64x512x32x1_0_1_2 : S64x512x32.BroadcastsInDim S64x512x32x1 (![0, 1, 2] : Fin 3 → Fin S64x512x32x1.rank)
  bcast_S64x512x32x1_S64x512x32x32_0_1_2_3 : S64x512x32x1.BroadcastsInDim S64x512x32x32 (![0, 1, 2, 3] : Fin 4 → Fin S64x512x32x32.rank)
  bcast_S1x512x1x1_S64x512x32x32_0_1_2_3 : S1x512x1x1.BroadcastsInDim S64x512x32x32 (![0, 1, 2, 3] : Fin 4 → Fin S64x512x32x32.rank)
  reducesTo_S64x512x32x32_S64x32x32_d1 : S64x512x32x32.ReducesTo [1] S64x32x32
  bcast_S64x32x32_S64x1x32x32_0_2_3 : S64x32x32.BroadcastsInDim S64x1x32x32 (![0, 2, 3] : Fin 3 → Fin S64x1x32x32.rank)
  bcast_S64x1x32x32_S64x512x32x32_0_1_2_3 : S64x1x32x32.BroadcastsInDim S64x512x32x32 (![0, 1, 2, 3] : Fin 4 → Fin S64x512x32x32.rank)

variable [Facts₀]

class Facts : Prop extends Facts₀ where

variable [Facts]
-- ==== Proof.Weight.lean ====
/-
  The function both programs compute, stated once over plain index functions.

  For a feature array X of extents [B, 512, H, 32] (batch, channel, row, lane) and a channel vector v of extents
  [1, 512, 1, 1], the attention weight of batch b and row h is

      weight X v b h = Σ_c v(0,c,0,0) · √( Σ_w X(b,c,h,w)² ),

  the v-weighted sum over the channels of the Euclidean norms of the rows of lanes, and the result is the features
  re-weighted by it: out(b,c,h,w) = X(b,c,h,w) · weight X v b h. The weight does not depend on the channel or the lane of
  the entry it multiplies. The extents B and H are left open so that the same definition reads a [2, 512, 8, 32] block
  of the array and the whole [64, 512, 32, 32] array: the channel and lane axes, the ones summed over, are never cut.
  Everything is over the extended reals; no law beyond commutativity of the product is used, so nothing here asks the
  entries to be finite.
-/
import Idealize.ShloMosaic.PureOps.Ideal
import Idealize.ShloMosaic.PureOps.Ideal.Laws
import Idealize.ShloMosaic.Lib.ValueIdx

noncomputable section

open scoped BigOperators

namespace Cert.RowNormAttn

open Idealize.ShloMosaic Idealize.ShloMosaic.ValueIdx

/-- The squared Euclidean norm of the row of lanes (b, c, h, ·). -/
def sumsq {B H : Nat} (X : (⟨4, ![B, 512, H, 32]⟩ : Shape).Idx → EReal) (b : Fin B) (c : Fin 512) (h : Fin H) : EReal :=
  ∑ w : Fin 32, X (ix4 b c h w) * X (ix4 b c h w)

/-- The attention weight of batch `b` and row `h`: the channel vector against the channels' row norms. -/
def weight {B H : Nat} (X : (⟨4, ![B, 512, H, 32]⟩ : Shape).Idx → EReal) (v : (⟨4, ![1, 512, 1, 1]⟩ : Shape).Idx → EReal)
    (b : Fin B) (h : Fin H) : EReal :=
  ∑ c : Fin 512, v (ix4 0 c 0 0) * Ideal.sqrt (sumsq X b c h)

/-- The re-weighted features, entry by entry. -/
def reweighted {B H : Nat} (X : (⟨4, ![B, 512, H, 32]⟩ : Shape).Idx → EReal) (v : (⟨4, ![1, 512, 1, 1]⟩ : Shape).Idx → EReal) :
    (⟨4, ![B, 512, H, 32]⟩ : Shape).Idx → EReal :=
  fun i => X i * weight X v (i 0) (i 2)

theorem reweighted_ix4 {B H : Nat} (X : (⟨4, ![B, 512, H, 32]⟩ : Shape).Idx → EReal) (v : (⟨4, ![1, 512, 1, 1]⟩ : Shape).Idx → EReal)
    (b : Fin B) (c : Fin 512) (h : Fin H) (w : Fin 32) :
    reweighted X v (ix4 b c h w) = X (ix4 b c h w) * weight X v b h := rfl

/-- The weight depends on the array only through the rows (b, ·, h, ·): two arrays, of whatever extents, that agree
    there — a block of an array and the array itself, at the block's offsets — have the same weight. -/
theorem weight_congr {B H B' H' : Nat} (X : (⟨4, ![B, 512, H, 32]⟩ : Shape).Idx → EReal)
    (X' : (⟨4, ![B', 512, H', 32]⟩ : Shape).Idx → EReal) (v : (⟨4, ![1, 512, 1, 1]⟩ : Shape).Idx → EReal)
    (b : Fin B) (h : Fin H) (b' : Fin B') (h' : Fin H')
    (hX : ∀ (c : Fin 512) (w : Fin 32), X (ix4 b c h w) = X' (ix4 b' c h' w)) :
    weight X v b h = weight X' v b' h' := by
  unfold weight sumsq
  refine Finset.sum_congr rfl fun c _ => ?_
  refine congrArg (v (ix4 0 c 0 0) * Ideal.sqrt ·) ?_
  exact Finset.sum_congr rfl fun w _ => by rw [hX c w]

/-- A block that cuts only the batch and row axes: if `P` reads `X` at the offsets (o0, 0, o2, 0) — entry z of the block is
    entry (o0 + z0, z1, o2 + z2, z3) of the array — then the block re-weighted is the array re-weighted, read at those
    offsets. The channels and lanes that a weight sums over all lie inside the block, so the block's weights are the array's. -/
theorem reweighted_block {B H B' H' : Nat} (X : (⟨4, ![B, 512, H, 32]⟩ : Shape).Idx → EReal)
    (P : (⟨4, ![B', 512, H', 32]⟩ : Shape).Idx → EReal) (v : (⟨4, ![1, 512, 1, 1]⟩ : Shape).Idx → EReal) (o0 o2 : Nat)
    (hP : ∀ (z : (⟨4, ![B', 512, H', 32]⟩ : Shape).Idx) (k : (⟨4, ![B, 512, H, 32]⟩ : Shape).Idx),
      (k 0).val = o0 + (z 0).val → (k 1).val = (z 1).val → (k 2).val = o2 + (z 2).val → (k 3).val = (z 3).val → P z = X k)
    (y : (⟨4, ![B', 512, H', 32]⟩ : Shape).Idx) (i : (⟨4, ![B, 512, H, 32]⟩ : Shape).Idx)
    (h0 : (i 0).val = o0 + (y 0).val) (h1 : (i 1).val = (y 1).val) (h2 : (i 2).val = o2 + (y 2).val) (h3 : (i 3).val = (y 3).val) :
    reweighted P v y = reweighted X v i := by
  unfold reweighted
  rw [hP y i h0 h1 h2 h3]
  refine congrArg (X i * ·) ?_
  exact weight_congr P X v (y 0) (y 2) (i 0) (i 2) fun c w => hP _ _ h0 rfl h2 rfl

end Cert.RowNormAttn

end
-- ==== Proof.BlockValue.lean ====
/-
  What the kernel body leaves in its output block, entry by entry, is the re-weighted input block.

  The body squares its [2, 512, 8, 32] block, sums each row of lanes, gives the sums a trailing unit axis, takes the square
  root, multiplies by the channel vector repeated over batch and row, sums over the channels, re-lays the [2, 8, 1] weights
  as [2, 1, 8, 1], repeats them over channels and lanes and multiplies the block by them. Read at the entry (b, c, h, w) of
  the block this is P(b,c,h,w) · Σ_c' v(c') · √(Σ_w' P(b,c',h,w')²): `reweighted` at the block's own extents.
-/
import proofs.«112456_j10780367913459_1_alg».proof.Proof.Gen.KernelIdeal.Value
import proofs.«112456_j10780367913459_1_alg».proof.Proof.Weight
import Idealize.ShloMosaic.Lib.Pipeline.Value
import Idealize.ShloMosaic.PureOps.Ideal.Laws

noncomputable section

open scoped BigOperators

namespace Cert.RowNormAttn.Block

open Idealize.ShloMosaic Idealize.ShloMosaic.ValueIdx Cert.KernelIdeal Cert.KernelIdeal.Gen Cert.KernelIdeal.Value

/-- The lane sum of the squared block, with its trailing unit axis, read at (b, c, h, 0): the row's squared norm. -/
theorem sumsq_entry (P : FVec Ideal S2x512x8x32 .f32) (b : Fin 2) (c : Fin 512) (h : Fin 8) :
    shapeCast S2x512x8x1 (multiReduction .add [3] S2x512x8 (mulf P P) 0x00000000#32 reduces_S2x512x8x32_S2x512x8 (.inl rfl) rfl)
        shapeCasts_S2x512x8_S2x512x8x1 (ix4 b c h 0) = sumsq P b c h := by
  refine (shapeCast_apply _ _ (ix4 b c h 0) (ix3 b c h) (by
    rw [Shape.rowMajor_val_three, Shape.rowMajor_val_four]
    show (b.val * 512 + c.val) * 8 + h.val = ((b.val * 512 + c.val) * 8 + h.val) * 1 + 0
    omega)).trans ?_
  refine (Ideal.multiReduction_add_single (mulf P P) 0x00000000#32 reduces_S2x512x8x32_S2x512x8 (.inl rfl) rfl (ix3 b c h)).trans ?_
  refine Finset.sum_congr rfl fun (w : Fin 32) _ => ?_
  have e : reduces_S2x512x8x32_S2x512x8.lift (ix3 b c h) w = ix4 b c h w :=
    funext fun a => Fin.ext (by match a with | ⟨0, _⟩ => rfl | ⟨1, _⟩ => rfl | ⟨2, _⟩ => rfl | ⟨3, _⟩ => rfl)
  rw [e]
  rfl

/-- The channel vector repeated over batch and row, read at (b, c, h, 0), is its entry at channel c. -/
theorem vec_entry (v : FVec Ideal S1x512x1x1 .f32) (b : Fin 2) (c : Fin 512) (h : Fin 8) :
    broadcastTo S2x512x8x1 v broadcasts_S1x512x1x1_S2x512x8x1 (ix4 b c h 0) = v (ix4 0 c 0 0) :=
  broadcastTo_apply v _ (ix4 b c h 0) (ix4 0 c 0 0) (fun a => match a with
    | ⟨0, _⟩ => by show 0 = if (1 : Nat) = 1 then 0 else b.val; rw [if_pos rfl]
    | ⟨1, _⟩ => by show c.val = if (512 : Nat) = 1 then 0 else c.val; rw [if_neg (by decide)]
    | ⟨2, _⟩ => by show 0 = if (1 : Nat) = 1 then 0 else h.val; rw [if_pos rfl]
    | ⟨3, _⟩ => by show 0 = if (1 : Nat) = 1 then 0 else 0; rw [if_pos rfl])

/-- The channel sum, read at (b, h, 0), is the weight of batch b and row h of the block. -/
theorem weight_entry (P : FVec Ideal S2x512x8x32 .f32) (v : FVec Ideal S1x512x1x1 .f32) (b : Fin 2) (h : Fin 8) :
    multiReduction .add [1] S2x8x1 (mulf (broadcastTo S2x512x8x1 v broadcasts_S1x512x1x1_S2x512x8x1)
        (sqrt (shapeCast S2x512x8x1 (multiReduction .add [3] S2x512x8 (mulf P P) 0x00000000#32 reduces_S2x512x8x32_S2x512x8 (.inl rfl) rfl)
          shapeCasts_S2x512x8_S2x512x8x1))) 0x00000000#32 reduces_S2x512x8x1_S2x8x1 (.inl rfl) rfl (ix3 b h 0)
      = weight P v b h := by
  refine (Ideal.multiReduction_add_single _ 0x00000000#32 reduces_S2x512x8x1_S2x8x1 (.inl rfl) rfl (ix3 b h 0)).trans ?_
  refine Finset.sum_congr rfl fun (c : Fin 512) _ => ?_
  have e : reduces_S2x512x8x1_S2x8x1.lift (ix3 b h 0) c = ix4 b c h 0 :=
    funext fun a => Fin.ext (by match a with | ⟨0, _⟩ => rfl | ⟨1, _⟩ => rfl | ⟨2, _⟩ => rfl | ⟨3, _⟩ => rfl)
  rw [e]
  show broadcastTo S2x512x8x1 v broadcasts_S1x512x1x1_S2x512x8x1 (ix4 b c h 0)
      * Ideal.sqrt (shapeCast S2x512x8x1 (multiReduction .add [3] S2x512x8 (mulf P P) 0x00000000#32 reduces_S2x512x8x32_S2x512x8 (.inl rfl) rfl)
          shapeCasts_S2x512x8_S2x512x8x1 (ix4 b c h 0)) = _
  rw [vec_entry, sumsq_entry]

/-- The body's output block at (b, c, h, w): the input block's entry times the weight of its batch and row. -/
theorem block_entry (P : FVec Ideal S2x512x8x32 .f32) (v : FVec Ideal S1x512x1x1 .f32) (b : Fin 2) (c : Fin 512) (h : Fin 8) (w : Fin 32) :
    E2 (F := Ideal) P v (ix4 b c h w) = reweighted P v (ix4 b c h w) := by
  have e0 : ix2_0 (ix4 b c h w) = ix4 b c h w :=
    funext fun a => Fin.ext (by match a with | ⟨0, _⟩ => rfl | ⟨1, _⟩ => rfl | ⟨2, _⟩ => rfl | ⟨3, _⟩ => rfl)
  have e1 : ix2_1 (ix4 b c h w) = ix3 b h 0 :=
    funext fun a => Fin.ext (by match a with | ⟨0, _⟩ => rfl | ⟨1, _⟩ => rfl | ⟨2, _⟩ => rfl)
  rw [reweighted_ix4, ← weight_entry P v b h, ← e1]
  show P (ix2_0 (ix4 b c h w)) * _ = P (ix4 b c h w) * _
  rw [e0]

/-- The same for every entry of the block. -/
theorem block_eq (P : FVec Ideal S2x512x8x32 .f32) (v : FVec Ideal S1x512x1x1 .f32) :
    E2 (F := Ideal) P v = reweighted P v := by
  funext y
  rw [eq_ix4 y]
  exact block_entry P v (y 0) (y 1) (y 2) (y 3)

end Cert.RowNormAttn.Block

end
-- ==== Proof.ArrayValue.lean ====
/-
  From the blocks to the array: after the kernel's run the result array is the re-weighted features.

  The grid has 32 × 4 points; point (p, q) reads the block of the features at batches 2p, 2p+1 and rows 8q … 8q+7 (all
  channels, all lanes) and the whole channel vector, and writes back the block of the result at the same place. What it
  writes is the re-weighted input block (the body, read entry by entry), which is the re-weighted array read through
  the block, because a block holds every channel and lane its weights sum over. The 128 blocks cover the array.
-/
import proofs.«112456_j10780367913459_1_alg».proof.Proof.Gen.KernelIdeal.Value
import proofs.«112456_j10780367913459_1_alg».proof.Proof.BlockValue
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RowNormAttn.Array

open Cert.KernelIdeal Cert.KernelIdeal.Gen Cert.KernelIdeal.Value

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The block indices at every grid point: the features' window and the result's window move together along batch and
    row and stay at 0 along channel and lane; the channel vector's window stays at 0 on every axis. -/
theorem block_indices : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_2.index t (1 : Fin 4) = 0 ∧ win0_2.index t (3 : Fin 4) = 0
    ∧ win0_1.index t (0 : Fin 4) = 0 ∧ win0_1.index t (1 : Fin 4) = 0
    ∧ win0_1.index t (2 : Fin 4) = 0 ∧ win0_1.index t (3 : Fin 4) = 0 :=
  (by decide +kernel : ∀ t : Fin grid0.N, _)

/-- Every pair (batch block, row block) is some grid point's. -/
theorem block_onto : ∀ (p : Fin 32) (q : Fin 4), ∃ t : Fin cfg0.N, win0_2.index t = ![p.val, 0, q.val, 0] :=
  (by decide +kernel : ∀ (p : Fin 32) (q : Fin 4), ∃ t : Fin grid0.N, win0_2.index t = ![p.val, 0, q.val, 0])

/-- The features' block at point `t` reads the features at the result block's offsets. -/
theorem features_block (c : Dev nD) (t : Fin cfg0.N) (z : S2x512x8x32.Idx) (k : S64x512x32x32.Idx)
    (h0 : (k 0).val = win0_2.index t (0 : Fin 4) * 2 + (z 0).val) (h1 : (k 1).val = (z 1).val)
    (h2 : (k 2).val = win0_2.index t (2 : Fin 4) * 8 + (z 2).val) (h3 : (k 3).val = (z 3).val) :
    (iblk m c 0 t : Vec Ideal S2x512x8x32 .f32) z = (V m c main_arg0 : S64x512x32x32.Idx → EReal) k := by
  obtain ⟨e0, e1, e2, e3, -⟩ := block_indices t
  unfold iblk
  rw [View.read_apply]
  show V m c main_arg0 _ = V m c main_arg0 _
  refine congrArg (V m c main_arg0) ?_
  funext a
  apply Fin.ext
  match a with
  | ⟨0, _⟩ => show win0_0.index t (0 : Fin 4) * 2 + 1 * (z 0).val = (k 0).val; omega
  | ⟨1, _⟩ => show win0_0.index t (1 : Fin 4) * 512 + 1 * (z 1).val = (k 1).val; omega
  | ⟨2, _⟩ => show win0_0.index t (2 : Fin 4) * 8 + 1 * (z 2).val = (k 2).val; omega
  | ⟨3, _⟩ => show win0_0.index t (3 : Fin 4) * 32 + 1 * (z 3).val = (k 3).val; omega

/-- The channel vector's block at every point is the whole vector. -/
theorem vector_block (c : Dev nD) (t : Fin cfg0.N) :
    (iblk m c 1 t : Vec Ideal S1x512x1x1 .f32) = (V m c main_arg1 : S1x512x1x1.Idx → EReal) := by
  obtain ⟨-, -, -, -, -, -, e0, e1, e2, e3⟩ := block_indices t
  funext z
  unfold iblk
  rw [View.read_apply]
  show V m c main_arg1 _ = V m c main_arg1 _
  refine congrArg (V m c main_arg1) ?_
  funext a
  apply Fin.ext
  match a with
  | ⟨0, _⟩ => show win0_1.index t (0 : Fin 4) * 1 + 1 * (z 0).val = (z 0).val; omega
  | ⟨1, _⟩ => show win0_1.index t (1 : Fin 4) * 512 + 1 * (z 1).val = (z 1).val; omega
  | ⟨2, _⟩ => show win0_1.index t (2 : Fin 4) * 1 + 1 * (z 2).val = (z 2).val; omega
  | ⟨3, _⟩ => show win0_1.index t (3 : Fin 4) * 1 + 1 * (z 3).val = (z 3).val; omega

/-- The result the array ends at. -/
abbrev result (c : Dev nD) : S64x512x32x32.Idx → EReal :=
  reweighted (V m c main_arg0 : S64x512x32x32.Idx → EReal) (V m c main_arg1 : S1x512x1x1.Idx → EReal)

/-- What point `t` writes back is block `t` of the re-weighted features. -/
theorem flushed_eq (c : Dev nD) (t : Fin cfg0.N) :
    (dats m 0 c).flushed 2 t = ((cfg0.win 2).blk t).view.read (Elt Ideal) (result m c) := by
  rw [flushed2]
  unfold out0_2
  funext y
  show View.canon (Val := Elt Ideal) (s := S2x512x8x32) (e := .f32)
      [⟨r0_0, k0_pay1 (View.ld (iblk m c 0 t) r0_0) (View.ld (iblk m c 1 t) r0_1)⟩] y
    = result m c (((cfg0.win 2).blk t).view.emb y)
  rw [canon2_eq, View.ld_unit_zero (S := S2x512x8x32) zero_offsets, View.ld_unit_zero (S := S1x512x1x1) zero_offsets,
    Block.block_eq, vector_block]
  obtain ⟨-, -, -, -, e1, e3, -⟩ := block_indices t
  refine reweighted_block _ _ _ (win0_2.index t (0 : Fin 4) * 2) (win0_2.index t (2 : Fin 4) * 8)
    (fun z k h0 h1 h2 h3 => features_block m c t z k h0 h1 h2 h3) y _ ?_ ?_ ?_ ?_
  · show win0_2.index t (0 : Fin 4) * 2 + 1 * (y 0).val = win0_2.index t (0 : Fin 4) * 2 + (y 0).val; omega
  · show win0_2.index t (1 : Fin 4) * 512 + 1 * (y 1).val = (y 1).val; omega
  · show win0_2.index t (2 : Fin 4) * 8 + 1 * (y 2).val = win0_2.index t (2 : Fin 4) * 8 + (y 2).val; omega
  · show win0_2.index t (3 : Fin 4) * 32 + 1 * (y 3).val = (y 3).val; omega

/-- An index of the array is in point `t`'s block iff each coordinate is in the block's range on its axis. -/
theorem mem_block (t : Fin cfg0.N) (i : S64x512x32x32.Idx) :
    i ∈ ((cfg0.win 2).blk t).view.set ↔ ∀ a : Fin 4, win0_2.index t a * S2x512x8x32.size a ≤ (i a).val
      ∧ (i a).val < win0_2.index t a * S2x512x8x32.size a + S2x512x8x32.size a := by
  show i ∈ ((View.whole main_v0).slice (win0_2.rect t)).set ↔ _
  rw [View.set_slice_whole, Rect.mem_set_unit]
  exact Iff.rfl

/-- Every entry of the array lies in the block of the point at its batch pair and row octet. -/
theorem covered (i : S64x512x32x32.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 32 := (i 2).isLt
  have hi3 : (i 3).val < 32 := (i 3).isLt
  obtain ⟨t, ht⟩ := block_onto ⟨(i 0).val / 2, by omega⟩ ⟨(i 2).val / 8, by omega⟩
  have q0 : win0_2.index t (0 : Fin 4) = (i 0).val / 2 := congrFun ht 0
  have q1 : win0_2.index t (1 : Fin 4) = 0 := congrFun ht 1
  have q2 : win0_2.index t (2 : Fin 4) = (i 2).val / 8 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 2 ≤ (i 0).val ∧ (i 0).val < win0_2.index t (0 : Fin 4) * 2 + 2; omega
  | ⟨1, _⟩ => show win0_2.index t (1 : Fin 4) * 512 ≤ (i 1).val ∧ (i 1).val < win0_2.index t (1 : Fin 4) * 512 + 512; omega
  | ⟨2, _⟩ => show win0_2.index t (2 : Fin 4) * 8 ≤ (i 2).val ∧ (i 2).val < win0_2.index t (2 : Fin 4) * 8 + 8; omega
  | ⟨3, _⟩ => show win0_2.index t (3 : Fin 4) * 32 ≤ (i 3).val ∧ (i 3).val < win0_2.index t (3 : Fin 4) * 32 + 32; omega

/-- The result array after the run is the re-weighted features. -/
theorem final (c : Dev nD) : (dats m 0 c).arrAt 2 cfg0.N = result m c :=
  (dats m 0 c).arrAt_eq_of_cover 2 (result m c) (fun t _ => flushed_eq m c t) covered

/-- The kernel's run, read: the result array at the re-weighted features of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.RowNormAttn.Array

end
-- ==== Proof.RefValue.lean ====
/-
  The reference's result, entry by entry, is the re-weighted features.

  The reference squares the array, sums each row of lanes from the zero word, takes the square root, repeats the norm along
  the lanes, multiplies by the channel vector repeated over batch, row and lane, sums over the channels from the zero word,
  repeats that weight over the channels, and multiplies it by the array. Read at an entry (b, c, h, w) this is
  (0 + Σ_c' v(c') · √(0 + Σ_w' X(b,c',h,w')²)) · X(b,c,h,w): the lane w at which the repeated norm is read drops out, the two
  zero words add nothing, and the product is taken in the other order than in `reweighted`.
-/
import proofs.«112456_j10780367913459_1_alg».proof.Proof.Gen.ReferenceIdeal.Read
import proofs.«112456_j10780367913459_1_alg».proof.Proof.Weight

noncomputable section

open scoped BigOperators

namespace Cert.RowNormAttn.Ref

open Idealize.ShloMosaic Idealize.ShloMosaic.ValueIdx Cert.ReferenceIdeal Cert.ReferenceIdeal.Read

/-- The entry of the channel vector that the channel-sum's term `k` reads. -/
theorem vec_index (i : S64x512x32x32.Idx) (k : Fin 512) :
    idx_main_v2 (idx_main_v4 (idx_main_v5 (idx_main_v6 i)) k) = ix4 0 k 0 0 :=
  funext fun a => Fin.ext (by match a with | ⟨0, _⟩ => rfl | ⟨1, _⟩ => rfl | ⟨2, _⟩ => rfl | ⟨3, _⟩ => rfl)

/-- The entry of the array that lane `w` of the norm inside the channel-sum's term `k` reads: the lane of the entry
    the result is read at has dropped out. -/
theorem arr_index (i : S64x512x32x32.Idx) (k : Fin 512) (w : Fin 32) :
    idx_main_call0_v1 (idx_main_call0_v2 (idx_main_v1 (idx_main_v4 (idx_main_v5 (idx_main_v6 i)) k))) w = ix4 (i 0) k (i 2) w :=
  funext fun a => Fin.ext (by match a with | ⟨0, _⟩ => rfl | ⟨1, _⟩ => rfl | ⟨2, _⟩ => rfl | ⟨3, _⟩ => rfl)

/-- The reference's last stage is the re-weighted features. -/
theorem result_eq (X : S64x512x32x32.Idx → EReal) (v : S1x512x1x1.Idx → EReal) :
    val_main_v7 (F := Ideal) X v = reweighted X v := by
  funext i
  rw [val_main_v7_apply, val_main_v6_apply, val_main_v5_apply, val_main_v4_apply]
  simp only [val_main_v3_apply, val_main_v2_apply, val_main_v1_apply, val_main_v0_apply, val_main_call0_v2_apply,
    val_main_call0_v1_apply, val_main_call0_v0_apply, val_main_cst_apply, val_main_call0_cst_apply, vec_index, arr_index,
    Ideal.mulf_def, Ideal.hostUnary_sqrt_def, Ideal.ofBits_def, Ideal.ofBits_zero_f32, zero_add]
  exact mul_comm _ _

end Cert.RowNormAttn.Ref

end
-- ==== Proof.lean ====
/-
  The kernel re-weights a feature array X of extents [64, 512, 32, 32] (batch, channel, row, lane) by an attention weight
  that depends only on the batch and the row:

      out(b,c,h,w) = X(b,c,h,w) · Σ_c' v(c') · √( Σ_w' X(b,c',h,w')² ),

  v a channel vector of extents [1, 512, 1, 1]. The reference computes the row norms, repeats them along the lanes,
  contracts the channels against v, repeats the result over the channels and multiplies it by X. Over the extended
  reals the two are the same function of X and v, entry by entry: the lane at which the repeated norm is read drops out,
  the zero words the reference's sums start from add nothing, and the final product is taken in the two orders. No law
  that fails at an infinity is used, so the precondition is never opened.

  The modules: `Weight` states the function (over open batch and row extents, so that it reads a block and the whole
  array alike) and that a block cutting only batch and row has the array's weights; `RefValue` reads the reference's
  stages at an entry; `BlockValue` reads the kernel body's output block at an entry; `ArrayValue` goes from the 32 × 4
  blocks to the array and states the kernel's run. Here: the frames, the (empty) idealization ledger, and the two runs
  side by side.
-/
import proofs.«112456_j10780367913459_1_alg».proof.Defs
import proofs.«112456_j10780367913459_1_alg».proof.Proof.Gen.Kernel
import proofs.«112456_j10780367913459_1_alg».proof.Proof.Gen.Kernel.Skeleton
import proofs.«112456_j10780367913459_1_alg».proof.Proof.Gen.Kernel.Launch
import proofs.«112456_j10780367913459_1_alg».proof.Proof.Gen.Kernel.Points
import proofs.«112456_j10780367913459_1_alg».proof.Proof.Gen.Kernel.Frame
import proofs.«112456_j10780367913459_1_alg».proof.Proof.Gen.KernelIdeal
import proofs.«112456_j10780367913459_1_alg».proof.Proof.Gen.KernelIdeal.Skeleton
import proofs.«112456_j10780367913459_1_alg».proof.Proof.Gen.KernelIdeal.Launch
import proofs.«112456_j10780367913459_1_alg».proof.Proof.Gen.KernelIdeal.Points
import proofs.«112456_j10780367913459_1_alg».proof.Proof.Gen.KernelIdeal.Frame
import proofs.«112456_j10780367913459_1_alg».proof.Proof.Gen.ReferenceIdeal
import proofs.«112456_j10780367913459_1_alg».proof.Proof.Gen.Pre_finite_inputs
import proofs.«112456_j10780367913459_1_alg».proof.Proof.Gen.KernelIdeal.Value
import proofs.«112456_j10780367913459_1_alg».proof.Proof.Gen.ReferenceIdeal.Run
import proofs.«112456_j10780367913459_1_alg».proof.Proof.Gen.ReferenceIdeal.Read
import proofs.«112456_j10780367913459_1_alg».proof.Proof.ArrayValue
import proofs.«112456_j10780367913459_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to preserve. -/
theorem preserves : Cert.preserves_Kernel_KernelIdeal := trivial

/-- From memories that agree on X and v, the kernel's result array ends at the re-weighted features (the blocks, put
    together) and the reference's at its last stage, which read entry by entry is the same function. -/
theorem algebraic : Cert.algebraic_KernelIdeal_ReferenceIdeal := by
  intro m ρ m' ρ' _ hagree
  refine ⟨fun c => Cert.RowNormAttn.Array.result m c, Cert.RowNormAttn.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RowNormAttn.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
